-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S1024x131072 : Shape := ⟨2, ![1024, 131072]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S1024x131072 : S_.BroadcastsInDim S1024x131072 (![] : Fin 0 → Fin S1024x131072.rank)
  reducesTo_S1024x131072_S_d0_1 : S1024x131072.ReducesTo [0, 1] S_

variable [Facts]

def fn {F : FTy → Type} [FloatOps F] (main_arg0 : FVec F S131072x256 .f32) (main_arg1 : FVec F S1024x131072 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S1024x131072 .f32 := Host.absf main_arg1
  let main_cst_0 : FVec F S_ .f32 := constant S_ .f32 0x7F800000#32
  let main_v5 : FVec F S1024x131072 .f32 := broadcastInDim S1024x131072 ![] bcast_S_S1024x131072 main_cst_0
  let main_v6 : IVec S1024x131072 1 := cmpf .olt main_v4 main_v5
  let main_c_1 : IVec S_ 1 := constantI S_ 1 1#1
  let main_v7 : IVec S_ 1 := (fun x v => Host.reduce IntOp.andi x v reducesTo_S1024x131072_S_d0_1 h_S_) main_v6 main_c_1
  let main_v8 : IVec S_ 1 := andi main_v3 main_v7
  main_v8
-- ==== Kernel.lean ====
abbrev S131072x256 : Shape := ⟨2, ![131072, 256]⟩
abbrev S1024x131072 : Shape := ⟨2, ![1024, 131072]⟩
abbrev S1024x256 : Shape := ⟨2, ![1024, 256]⟩
abbrev S1024x4096 : Shape := ⟨2, ![1024, 4096]⟩
abbrev S4096x256 : Shape := ⟨2, ![4096, 256]⟩

abbrev nBuf : Space → Nat
  | .hbm => 3
  | .vmem => 6
  | .smem => 0
  | _ => 0

abbrev bufTy : (tb : Table) → Fin (tcTables nBuf tb) → BufTy
  | .hbm, ⟨0, _⟩ => ⟨S131072x256, .f32⟩
  | .hbm, ⟨1, _⟩ => ⟨S1024x131072, .f32⟩
  | .hbm, ⟨2, _⟩ => ⟨S1024x256, .f32⟩
  | .local _ .vmem, ⟨0, _⟩ => ⟨S1024x4096, .f32⟩
  | .local _ .vmem, ⟨1, _⟩ => ⟨S1024x4096, .f32⟩
  | .local _ .vmem, ⟨2, _⟩ => ⟨S4096x256, .f32⟩
  | .local _ .vmem, ⟨3, _⟩ => ⟨S4096x256, .f32⟩
  | .local _ .vmem, ⟨4, _⟩ => ⟨S1024x256, .f32⟩
  | .local _ .vmem, ⟨5, _⟩ => ⟨S1024x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x4096_S1024x4096_0_0 : ∀ a, (![0, 0] : Fin 2 → Nat) a + S1024x4096.size a ≤ S1024x4096.size a
  h_S1024x4096 : 0 < S1024x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  dot_S1024x4096_S4096x256_S1024x256_1_0_0_1_n_n_wf : DotDims.WF S1024x4096 S4096x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x131072.size a
  hwx0_0 : ∀ i : grid0.Coords, EltTy.bits .f32 = 32 ∨ (Rect.block (s := S1024x131072) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)

variable [Facts₀]

def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x256 : Shape := ⟨2, ![131072, 256]⟩
abbrev S1024x131072 : Shape := ⟨2, ![1024, 131072]⟩
abbrev S1024x256 : Shape := ⟨2, ![1024, 256]⟩

abbrev nBuf : Space → Nat
  | .hbm => 4
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S1024x131072, .f32⟩
  | .hbm, ⟨2, _⟩ => ⟨S1024x256, .f32⟩
  | .hbm, ⟨3, _⟩ => ⟨S1024x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S1024x131072_S131072x256_S1024x256_1_0_0_1_n_n_wf : DotDims.WF S1024x131072 S131072x256 S1024x256 [1] [0] [0] [1] [] []

variable [Facts₀]

def dot_S1024x131072_S131072x256_S1024x256_1_0_0_1_n_n : DotDims S1024x131072 S131072x256 S1024x256 where
  lhsContracting := [1]
  rhsContracting := [0]
  lhsNonContracting := [0]
  rhsNonContracting := [1]
  lhsBatch := []
  rhsBatch := []
  wf := dot_S1024x131072_S131072x256_S1024x256_1_0_0_1_n_n_wf

class Facts : Prop extends Facts₀ where

variable [Facts]
-- ==== Proof.Pieces.lean ====
/-
  What one grid step leaves behind, read back as values.

  The accumulator is stored whole by every step: at the first step the step stores zeros, reads them back and stores
  zeros + (this tile's product); at a later step it stores (what the step before left) + (this tile's product). At
  the last step the result block is stored as tanh of the accumulator just written. Each statement below says that
  the buffer's contents after the step, given as the step's stores read back, are that one expression of the step's
  inputs.
-/
import proofs.«181324_j16982300688779_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A middle step leaves (what the step before left) + (this tile's product) in the accumulator. -/
theorem acc_mid (c : Dev nD) (i : grid0.Coords) (a1 : Memref sig .tc .vmem S1024x4096 .f32) (h1 : a1.IsWhole)
    (a2 : Memref sig .tc .vmem S4096x256 .f32) (h2 : a2.IsWhole) (a3 : Memref sig .tc .vmem S1024x256 .f32) (h3 : a3.IsWhole)
    (a4 : Memref sig .tc .vmem S1024x256 .f32) (h4 : a4.IsWhole) (hc0 : ¬cond0_0 i) (hc1 : ¬cond0_1 i)
    (x0 : Vec F S1024x4096 .f32) (x1 : Vec F S4096x256 .f32) (xs : Vec F S1024x256 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero hz]
  simp only [View.readAt_eq_ld, h1.read_unread, h2.read_unread, h4.read_unread, View.ld_unit_zero (S := S1024x4096) hz,
    View.ld_unit_zero (S := S4096x256) hz, View.ld_unit_zero (S := S1024x256) hz]

/-- The last step leaves the same in the accumulator. -/
theorem acc_last (c : Dev nD) (i : grid0.Coords) (a1 : Memref sig .tc .vmem S1024x4096 .f32) (h1 : a1.IsWhole)
    (a2 : Memref sig .tc .vmem S4096x256 .f32) (h2 : a2.IsWhole) (a3 : Memref sig .tc .vmem S1024x256 .f32) (h3 : a3.IsWhole)
    (a4 : Memref sig .tc .vmem S1024x256 .f32) (h4 : a4.IsWhole) (hc0 : ¬cond0_0 i) (hc1 : cond0_1 i)
    (x0 : Vec F S1024x4096 .f32) (x1 : Vec F S4096x256 .f32) (xs : Vec F S1024x256 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S1024x4096) hz,
    View.ld_unit_zero (S := S4096x256) hz, View.ld_unit_zero (S := S1024x256) hz]

/-- The first step leaves zeros + (the first tile's product): it stores the zeros, reads them back, and stores the sum. -/
theorem acc_first (c : Dev nD) (i : grid0.Coords) (a1 : Memref sig .tc .vmem S1024x4096 .f32) (h1 : a1.IsWhole)
    (a2 : Memref sig .tc .vmem S4096x256 .f32) (h2 : a2.IsWhole) (a3 : Memref sig .tc .vmem S1024x256 .f32) (h3 : a3.IsWhole)
    (a4 : Memref sig .tc .vmem S1024x256 .f32) (h4 : a4.IsWhole) (hc0 : cond0_0 i) (hc1 : ¬cond0_1 i)
    (x0 : Vec F S1024x4096 .f32) (x1 : Vec F S4096x256 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1024x256) hz, View.readCov_unit_zero (S := S1024x256) _ hz]
  simp only [View.readAt_eq_ld, h1.read_unread, h2.read_unread, View.ld_unit_zero (S := S1024x4096) hz,
    View.ld_unit_zero (S := S4096x256) hz]

/-- The last step leaves tanh of the accumulator it has just written in the result block. -/
theorem out_last (c : Dev nD) (i : grid0.Coords) (a1 : Memref sig .tc .vmem S1024x4096 .f32) (h1 : a1.IsWhole)
    (a2 : Memref sig .tc .vmem S4096x256 .f32) (h2 : a2.IsWhole) (a3 : Memref sig .tc .vmem S1024x256 .f32) (h3 : a3.IsWhole)
    (a4 : Memref sig .tc .vmem S1024x256 .f32) (h4 : a4.IsWhole) (hc0 : ¬cond0_0 i) (hc1 : cond0_1 i)
    (x0 : Vec F S1024x4096 .f32) (x1 : Vec F S4096x256 .f32) (xs : Vec F S1024x256 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1024x256) _ hz]
  simp only [View.readAt_eq_ld, h1.read_unread, h2.read_unread, h4.read_unread, View.ld_unit_zero (S := S1024x4096) hz,
    View.ld_unit_zero (S := S4096x256) hz, View.ld_unit_zero (S := S1024x256) hz]

end Cert.KernelIdeal.Pieces

end
-- ==== Proof.LibTileStats.lean ====
/-
  General lemmas for sums taken tile by tile.

  * A lane reduction along the FIRST axis of an [a, b] array of extended reals, read at a column: the column's sum.
  * A sum over m · n rows is the sum over m tiles of the sums over each tile's n rows.
  * A sum over the first k + 1 tiles is the sum over the first k tiles plus tile k's.
-/
import Idealize.ShloMosaic.PureOps.Ideal.Laws
import Idealize.ShloMosaic.Lib.ValueIdx
import Mathlib.Algebra.BigOperators.Fin
import Mathlib.Logic.Equiv.Fin.Basic

noncomputable section

namespace Cert.Lib.TileStats

open Idealize.ShloMosaic Idealize.ShloMosaic.ValueIdx

/-- A sum over the first axis of an `[a, b]` array of extended reals, read at column `q`: the column's sum. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ y : Fin a, src (ix2 y q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-- The same for a single-precision array whose accumulator is the zero pattern, the proof argument typed as it is printed. -/
theorem colSum_f32_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ y : Fin a, src (ix2 y q) :=
  colSum_apply src _ h hφ hacc q

/-- Row `y` of tile `t` among tiles of `n` rows, kept below `N` by a remainder that does nothing on a real tile. -/
def tileRow (N n : ℕ) (hN : 0 < N) (t : ℕ) (y : Fin n) : Fin N := ⟨(t * n + y.val) % N, Nat.mod_lt _ hN⟩

theorem tileRow_val {N n : ℕ} (hN : 0 < N) (t : ℕ) (y : Fin n) (h : t * n + y.val < N) :
    (tileRow N n hN t y).val = t * n + y.val := Nat.mod_eq_of_lt h

/-- A sum over `m · n` rows, tile by tile. -/
theorem sum_tiles {M : Type*} [AddCommMonoid M] (m n N : ℕ) (hmn : m * n = N) (hN : 0 < N) (f : Fin N → M) :
    ∑ r : Fin N, f r = ∑ t ∈ Finset.range m, ∑ y : Fin n, f (tileRow N n hN t y) := by
  subst hmn
  rw [← Fin.sum_univ_eq_sum_range (fun t => ∑ y : Fin n, f (tileRow (m * n) n hN t y)) m]
  rw [← Equiv.sum_comp finProdFinEquiv f, Fintype.sum_prod_type]
  refine Finset.sum_congr rfl fun t _ => Finset.sum_congr rfl fun y _ => congrArg f (Fin.ext ?_)
  have hlt : t.val * n + y.val < m * n := by
    have h1 : t.val + 1 ≤ m := t.isLt
    calc t.val * n + y.val < t.val * n + n := by have := y.isLt; omega
      _ = (t.val + 1) * n := by ring
      _ ≤ m * n := Nat.mul_le_mul_right n h1
  rw [tileRow_val hN t.val y hlt]
  show y.val + n * t.val = t.val * n + y.val
  rw [Nat.mul_comm, Nat.add_comm]

/-- One more tile. -/
theorem sum_range_succ_tile {M : Type*} [AddCommMonoid M] (g : ℕ → M) (k : ℕ) :
    ∑ t ∈ Finset.range (k + 1 + 1), g t = (∑ t ∈ Finset.range (k + 1), g t) + g (k + 1) :=
  Finset.sum_range_succ g (k + 1)

end Cert.Lib.TileStats

end
-- ==== Proof.PoolSpec.lean ====
/-
  Sum pooling followed by tanh, as one function of the two argument arrays.

  A is the [1024, 131072] graph-membership matrix, X the [131072, 256] node features. The pooled value at
  (g, d) is tanh (∑ k, A (g, k) · X (k, d)) over all 131072 nodes. The sum can also be taken tile by tile: the
  nodes come in 32 tiles of 4096, tile t's share is the sum over its 4096 nodes, and the running sum after tile n
  adds the shares of tiles 0 … n. On the extended reals addition is commutative and associative (no
  finiteness is needed for that), so the running sum after the last tile is the whole sum.
-/
import Idealize.ShloMosaic.PureOps.Ideal
import Idealize.ShloMosaic.Lib.ValueIdx
import proofs.«181324_j16982300688779_1_alg».proof.Proof.LibTileStats

noncomputable section

namespace Cert.Pool

open Idealize.ShloMosaic Idealize.ShloMosaic.ValueIdx Cert.Lib.TileStats

/-- The membership matrix's shape, the features' shape, and the result's. -/
abbrev SA : Shape := ⟨2, ![1024, 131072]⟩
abbrev SX : Shape := ⟨2, ![131072, 256]⟩
abbrev SO : Shape := ⟨2, ![1024, 256]⟩

/-- Node `y` of tile `t`: node `4096 · t + y`. -/
abbrev node (t : ℕ) (y : Fin 4096) : Fin 131072 := tileRow 131072 4096 (by norm_num) t y

theorem node_val (t : ℕ) (ht : t < 32) (y : Fin 4096) : (node t y).val = t * 4096 + y.val :=
  tileRow_val _ t y (by have := y.isLt; omega)

/-- Tile `t`'s share of the pooled sum at `j = (g, d)`. -/
def tileSum (A : SA.Idx → EReal) (X : SX.Idx → EReal) (t : ℕ) (j : SO.Idx) : EReal :=
  ∑ y : Fin 4096, A (ix2 (j 0) (node t y)) * X (ix2 (node t y) (j 1))

/-- The sum of the shares of tiles `0 … n`. -/
def running (A : SA.Idx → EReal) (X : SX.Idx → EReal) (n : ℕ) (j : SO.Idx) : EReal :=
  ∑ t ∈ Finset.range (n + 1), tileSum A X t j

/-- Sum pooling then tanh. -/
def pooled (A : SA.Idx → EReal) (X : SX.Idx → EReal) (j : SO.Idx) : EReal :=
  Ideal.tanh (∑ k : Fin 131072, A (ix2 (j 0) k) * X (ix2 k (j 1)))

variable (A : SA.Idx → EReal) (X : SX.Idx → EReal)

/-- After the first tile: zero plus its share. -/
theorem running_zero (j : SO.Idx) : running A X 0 j = 0 + tileSum A X 0 j := by
  unfold running
  rw [Finset.sum_range_one, zero_add]

/-- One more tile. -/
theorem running_succ (n : ℕ) (j : SO.Idx) : running A X (n + 1) j = running A X n j + tileSum A X (n + 1) j := by
  unfold running
  exact Finset.sum_range_succ _ (n + 1)

/-- After the last tile the running sum is the sum over all nodes. -/
theorem running_last (j : SO.Idx) : running A X 31 j = ∑ k : Fin 131072, A (ix2 (j 0) k) * X (ix2 k (j 1)) := by
  unfold running tileSum
  exact (sum_tiles 32 4096 131072 (by norm_num) (by norm_num) (fun k => A (ix2 (j 0) k) * X (ix2 k (j 1)))).symm

/-- So tanh of the last running sum is the pooled value. -/
theorem tanh_running_last (j : SO.Idx) : Ideal.tanh (running A X 31 j) = pooled A X j := by
  rw [running_last]; rfl

end Cert.Pool

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.Payload.lean ====
/-
  One grid step's arithmetic, entry by entry, on the extended reals.

  The zeros the first step stores are 0. A step's new accumulator at (g, d) is the old one at (g, d) plus
  ∑ k < 4096, a (g, k) · b (k, d) of the two tiles it loaded: narrowing the tiles to a shorter float format
  changes nothing on the extended reals, and a matrix-unit product into zeros is the plain sum over the
  contracted axis. The result block is tanh of the accumulator, entry by entry.
  Tile t of the membership matrix holds columns 4096 t … 4096 t + 4095 of all its rows, tile t of the features
  rows 4096 t … 4096 t + 4095 of all their columns.
-/
import proofs.«181324_j16982300688779_1_alg».proof.Proof.Gen.KernelIdeal.Frame
import proofs.«181324_j16982300688779_1_alg».proof.Proof.PoolSpec
import proofs.«181324_j16982300688779_1_alg».proof.Proof.LibDotSum
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.TcCoe Idealize.SL.Sem Idealize.ShloMosaic.ValueIdx
open Cert.KernelIdeal Cert.KernelIdeal.Gen Cert.Pool

/-- The zeros the first step stores. -/
theorem zeros_apply (j : S1024x256.Idx) : k0_pay1 (F := Ideal) j = 0 := by
  unfold k0_pay1
  rw [shapeCast_self]
  show Ideal.ofBits .f32 0x00000000#32 = 0
  exact Ideal.ofBits_zero_f32

/-- The left operand's row coordinate is the output's row, -/
theorem lhs_row (i : S1024x256.Idx) (q : dot_S1024x4096_S4096x256_S1024x256_1_0_0_1_n_n.contr.Idx) :
    (dot_S1024x4096_S4096x256_S1024x256_1_0_0_1_n_n.lhsIdx i q 0).val = (i 0).val := by
  unfold DotDims.lhsIdx
  rw [dif_neg (show ¬(0 : Fin S1024x4096.rank) ∈ dot_S1024x4096_S4096x256_S1024x256_1_0_0_1_n_n.lhsBatch by decide),
    dif_pos (show (0 : Fin S1024x4096.rank) ∈ dot_S1024x4096_S4096x256_S1024x256_1_0_0_1_n_n.lhsNonContracting by decide)]
  rfl
/-- its column coordinate the contraction position; -/
theorem lhs_col (i : S1024x256.Idx) (q : dot_S1024x4096_S4096x256_S1024x256_1_0_0_1_n_n.contr.Idx) :
    (dot_S1024x4096_S4096x256_S1024x256_1_0_0_1_n_n.lhsIdx i q 1).val = (q ⟨0, by decide⟩).val :=
  dot_S1024x4096_S4096x256_S1024x256_1_0_0_1_n_n.lhsIdx_val_of_single rfl i q
/-- the right operand's row coordinate is the contraction position, -/
theorem rhs_row (i : S1024x256.Idx) (q : dot_S1024x4096_S4096x256_S1024x256_1_0_0_1_n_n.contr.Idx) :
    (dot_S1024x4096_S4096x256_S1024x256_1_0_0_1_n_n.rhsIdx i q 0).val = (q ⟨0, by decide⟩).val :=
  dot_S1024x4096_S4096x256_S1024x256_1_0_0_1_n_n.rhsIdx_val_of_single rfl i q
/-- its column coordinate the output's column. -/
theorem rhs_col (i : S1024x256.Idx) (q : dot_S1024x4096_S4096x256_S1024x256_1_0_0_1_n_n.contr.Idx) :
    (dot_S1024x4096_S4096x256_S1024x256_1_0_0_1_n_n.rhsIdx i q 1).val = (i 1).val := by
  unfold DotDims.rhsIdx
  rw [dif_neg (show ¬(1 : Fin S4096x256.rank) ∈ dot_S1024x4096_S4096x256_S1024x256_1_0_0_1_n_n.rhsBatch by decide),
    dif_pos (show (1 : Fin S4096x256.rank) ∈ dot_S1024x4096_S4096x256_S1024x256_1_0_0_1_n_n.rhsNonContracting by decide)]
  rfl

/-- Row g of the left tile at contraction position k. -/
theorem lhs_at (g : Fin 1024) (d : Fin 256) (k : Fin 4096) :
    dot_S1024x4096_S4096x256_S1024x256_1_0_0_1_n_n.lhsIdx (ix2 g d)
      ((contrEquiv1 dot_S1024x4096_S4096x256_S1024x256_1_0_0_1_n_n 4096 rfl rfl).symm k) = (ix2 g k : S1024x4096.Idx) := by
  have hk := contrEquiv1_symm_val dot_S1024x4096_S4096x256_S1024x256_1_0_0_1_n_n 4096 rfl rfl k
  exact funext fun a => Fin.ext (by
    match a with
    | ⟨0, _⟩ => exact lhs_row _ _
    | ⟨1, _⟩ => exact (lhs_col _ _).trans hk)

/-- Column d of the right tile at contraction position k. -/
theorem rhs_at (g : Fin 1024) (d : Fin 256) (k : Fin 4096) :
    dot_S1024x4096_S4096x256_S1024x256_1_0_0_1_n_n.rhsIdx (ix2 g d)
      ((contrEquiv1 dot_S1024x4096_S4096x256_S1024x256_1_0_0_1_n_n 4096 rfl rfl).symm k) = (ix2 k d : S4096x256.Idx) := by
  have hk := contrEquiv1_symm_val dot_S1024x4096_S4096x256_S1024x256_1_0_0_1_n_n 4096 rfl rfl k
  exact funext fun a => Fin.ext (by
    match a with
    | ⟨0, _⟩ => exact (rhs_row _ _).trans hk
    | ⟨1, _⟩ => exact rhs_col _ _)

/-- One step: the new accumulator at (g, d) is the old one plus the tiles' product there. -/
theorem step_apply (a : Vec Ideal S1024x4096 .f32) (b : Vec Ideal S4096x256 .f32) (acc : Vec Ideal S1024x256 .f32)
    (g : Fin 1024) (d : Fin 256) :
    k0_pay2 (F := Ideal) a b acc (ix2 g d) = acc (ix2 g d) + ∑ k : Fin 4096, a (ix2 g k) * b (ix2 k d) := by
  unfold k0_pay2
  rw [shapeCast_self]
  show acc (ix2 g d) + matmul dot_S1024x4096_S4096x256_S1024x256_1_0_0_1_n_n none (truncf .bf16 a bitsLt_bf16_f32)
    (truncf .bf16 b bitsLt_bf16_f32) (constant (F := Ideal) S1024x256 .f32 0x00000000#32) (ix2 g d) = _
  congr 1
  exact DotSum.matmul_zero_eq_sum dot_S1024x4096_S4096x256_S1024x256_1_0_0_1_n_n 4096 rfl rfl _ _ (ix2 g d)
    (fun k => ix2 g k) (fun k => ix2 k d) (lhs_at g d) (rhs_at g d)

/-- The result block is tanh of the accumulator, entry by entry. -/
theorem out_apply (v : Vec Ideal S1024x256 .f32) (j : S1024x256.Idx) : k0_pay3 (F := Ideal) v j = Ideal.tanh (v j) := rfl

variable (m : (ℓ : Loc nD τ sig) → Buf (Elt Ideal) ℓ)

/-- The membership tile and the feature tile the step at grid point t loads. -/
abbrev tileA (c : Dev nD) (t : Fin cfg0.N) : Vec Ideal S1024x4096 .f32 := iblk m c 0 t
abbrev tileX (c : Dev nD) (t : Fin cfg0.N) : Vec Ideal S4096x256 .f32 := iblk m c 1 t

/-- Where the two windows' blocks sit at grid point t: block (0, t) of the membership matrix, block (t, 0) of the features. -/
theorem index_facts : ∀ t : Fin cfg0.N, (win0_0.index t 0 = 0 ∧ win0_0.index t 1 = t.val) ∧ (win0_1.index t 0 = t.val ∧ win0_1.index t 1 = 0) :=
  (by decide +kernel : ∀ t : Fin grid0.N, (win0_0.index t 0 = 0 ∧ win0_0.index t 1 = t.val) ∧ (win0_1.index t 0 = t.val ∧ win0_1.index t 1 = 0))

/-- Entry (g, k) of the membership tile at point t is entry (g, 4096 t + k) of the matrix. -/
theorem tileA_apply (c : Dev nD) (t : Fin cfg0.N) (g : Fin 1024) (k : Fin 4096) :
    tileA m c t (ix2 g k) = m ((c : Thread nD τ).loc main_arg1) (ix2 g (node t.val k)) := by
  have hN : t.val < 32 := lt_of_lt_of_eq t.isLt (show cfg0.N = 32 from N_0)
  have hi := (index_facts t).1
  have hk := k.isLt
  unfold tileA iblk
  rw [View.read_apply]
  show V m c main_arg1 _ = m (c.tc.loc main_arg1) _
  unfold V
  congr 1
  funext a
  apply Fin.ext
  match a with
  | ⟨0, _⟩ => show win0_0.index t 0 * 1024 + 1 * g.val = g.val; rw [hi.1]; omega
  | ⟨1, _⟩ => show win0_0.index t 1 * 4096 + 1 * k.val = (node t.val k).val; rw [hi.2, node_val t.val hN k]; omega

/-- Entry (k, d) of the feature tile at point t is entry (4096 t + k, d) of the features. -/
theorem tileX_apply (c : Dev nD) (t : Fin cfg0.N) (k : Fin 4096) (d : Fin 256) :
    tileX m c t (ix2 k d) = m ((c : Thread nD τ).loc main_arg0) (ix2 (node t.val k) d) := by
  have hN : t.val < 32 := lt_of_lt_of_eq t.isLt (show cfg0.N = 32 from N_0)
  have hi := (index_facts t).2
  have hk := k.isLt
  unfold tileX iblk
  rw [View.read_apply]
  show V m c main_arg0 _ = m (c.tc.loc main_arg0) _
  unfold V
  congr 1
  funext a
  apply Fin.ext
  match a with
  | ⟨0, _⟩ => show win0_1.index t 0 * 4096 + 1 * k.val = (node t.val k).val; rw [hi.1, node_val t.val hN k]; omega
  | ⟨1, _⟩ => show win0_1.index t 1 * 256 + 1 * d.val = d.val; rw [hi.2]; omega

/-- So the product of the two tiles at point t, at (g, d), is tile t's share of the pooled sum. -/
theorem tile_share (c : Dev nD) (t : Fin cfg0.N) (g : Fin 1024) (d : Fin 256) :
    ∑ k : Fin 4096, tileA m c t (ix2 g k) * tileX m c t (ix2 k d)
      = tileSum (m ((c : Thread nD τ).loc main_arg1)) (m ((c : Thread nD τ).loc main_arg0)) t.val (ix2 g d) := by
  unfold tileSum
  exact Finset.sum_congr rfl fun k _ => by rw [tileA_apply m c t g k, tileX_apply m c t k d]

end Cert.KernelIdeal.Payload

end
-- ==== Proof.Accum.lean ====
/-
  The accumulator across the grid.

  After grid point n the accumulator holds, at every (g, d), the sum of the shares of tiles 0 … n: the first point
  leaves 0 + (tile 0's share), every later point adds its tile's share to what the point before left. By induction
  on the point. At the last point, 31, the result block is tanh of that accumulator, which is the pooled function.
-/
import proofs.«181324_j16982300688779_1_alg».proof.Proof.Pieces
import proofs.«181324_j16982300688779_1_alg».proof.Proof.Payload

noncomputable section

namespace Cert.KernelIdeal.Accum

open Idealize.ShloMosaic Idealize.ShloMosaic.TcCoe Idealize.SL.Sem Idealize.ShloMosaic.ValueIdx
open Cert.KernelIdeal Cert.KernelIdeal.Gen Cert.Pool Cert.KernelIdeal.Payload

variable (m : (ℓ : Loc nD τ sig) → Buf (Elt Ideal) ℓ)

/-- The membership matrix and the features as the kernel finds them. -/
abbrev matA (c : Dev nD) : SA.Idx → EReal := m ((c : Thread nD τ).loc main_arg1)
abbrev matX (c : Dev nD) : SX.Idx → EReal := m ((c : Thread nD τ).loc main_arg0)

/-- One step over an accumulator that holds the running sum up to the tile before leaves the running sum up to this tile. -/
theorem step_running (c : Dev nD) (t : Fin cfg0.N) (n : ℕ) (hn : t.val = n + 1) (acc : Vec Ideal S1024x256 .f32)
    (hacc : acc = running (matA m c) (matX m c) n) :
    k0_pay2 (F := Ideal) (tileA m c t) (tileX m c t) acc = running (matA m c) (matX m c) (n + 1) := by
  funext j
  obtain ⟨g, d, rfl⟩ : ∃ (g : Fin 1024) (d : Fin 256), j = ix2 g d := ⟨j 0, j 1, eq_ix2 j⟩
  refine (step_apply (tileA m c t) (tileX m c t) acc g d).trans ?_
  rw [running_succ, tile_share m c t g d, hn, hacc]

/-- The first step leaves the running sum up to tile 0. -/
theorem first_running (c : Dev nD) (t : Fin cfg0.N) (hn : t.val = 0) :
    k0_pay2 (F := Ideal) (tileA m c t) (tileX m c t) (k0_pay1 (F := Ideal)) = running (matA m c) (matX m c) 0 := by
  funext j
  obtain ⟨g, d, rfl⟩ : ∃ (g : Fin 1024) (d : Fin 256), j = ix2 g d := ⟨j 0, j 1, eq_ix2 j⟩
  refine (step_apply (tileA m c t) (tileX m c t) (k0_pay1 (F := Ideal)) g d).trans ?_
  rw [running_zero, tile_share m c t g d, hn, zeros_apply]

/-- What the accumulator holds after point n is the running sum up to tile n. -/
theorem acc_eq (c : Dev nD) : ∀ (n : ℕ) (h : n < cfg0.N), (outsAt0 m c n h).2 = running (matA m c) (matX m c) n
  | 0, h => by
    rw [outsAt0_A m c ⟨0, h⟩ rfl (by dsimp only; omega)]
    dsimp only
    rw [Pieces.acc_first]
    exact first_running m c ⟨0, h⟩ rfl
  | n + 1, h => by
    have hN : n + 1 < 32 := lt_of_lt_of_eq h (show cfg0.N = 32 from N_0)
    have h0 : ¬(⟨n + 1, h⟩ : Fin cfg0.N).val % 32 = 0 := by dsimp only; omega
    have ih := acc_eq c n (Nat.lt_of_succ_lt h)
    by_cases h1 : (⟨n + 1, h⟩ : Fin cfg0.N).val % 32 = 31
    · rw [outsAt0_C m c ⟨n + 1, h⟩ h0 h1]
      dsimp only
      rw [Pieces.acc_last]
      exact step_running m c ⟨n + 1, h⟩ n rfl _ ih
    · rw [outsAt0_B m c ⟨n + 1, h⟩ h0 h1]
      dsimp only
      rw [Pieces.acc_mid]
      exact step_running m c ⟨n + 1, h⟩ n rfl _ ih

/-- The last grid point. -/
abbrev tLast : Fin cfg0.N := ⟨31, by rw [show cfg0.N = 32 from N_0]; decide⟩

/-- At the last point the result block holds the pooled function. -/
theorem out_eq (c : Dev nD) : (outsAt0 m c tLast.val tLast.isLt).1 = pooled (matA m c) (matX m c) := by
  rw [outsAt0_C m c tLast (by decide) (by decide)]
  dsimp only
  rw [Pieces.out_last]
  funext j
  rw [out_apply, step_running m c tLast 30 rfl _ (acc_eq m c 30 _)]
  exact tanh_running_last _ _ j

end Cert.KernelIdeal.Accum

end
-- ==== Proof.KernelValue.lean ====
/-
  The kernel's result array.

  The result window's block never moves: it is the whole [1024, 256] array, and it is written back once, after the
  last grid point. What is written back there is the pooled function (the accumulator's tanh at the last point), and
  that one block covers every index, so the array ends holding the pooled function of the two arguments.
-/
import proofs.«181324_j16982300688779_1_alg».proof.Proof.Accum
import proofs.«181324_j16982300688779_1_alg».proof.Proof.Gen.KernelIdeal.Value
import Idealize.ShloMosaic.Lib.Pipeline.Value

noncomputable section

namespace Cert.KernelIdeal.KValue

open Idealize.ShloMosaic Idealize.ShloMosaic.TcCoe Idealize.SL.Sem
open Idealize.ShloMosaic.Pipeline (Dat)
open Cert.KernelIdeal Cert.KernelIdeal.Gen Cert.Pool Cert.KernelIdeal.Accum

variable (m : (ℓ : Loc nD τ sig) → Buf (Elt Ideal) ℓ) (ρ : Dev nD → PrngReg)

/-- The pooled function of the kernel's two arguments, as contents of its result array. -/
abbrev result (c : Dev nD) : Buf (Elt Ideal) ((c : Thread nD τ).loc main_v0) := pooled (matA m c) (matX m c)

/-- The one write-back, after point 31, writes the pooled function: block (0, 0) read through zero offsets is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 32 := N_0
  have h31 : t.val = 31 := by have := (flush0_2 t).mp hf; have := t.isLt; omega
  obtain rfl : t = tLast := Fin.ext h31
  rw [Cert.KernelIdeal.Value.flushed2, out_eq]
  have hz' : (fun a => win0_2.index tLast a * main_v0.ty.shape.size a) = fun _ => 0 := funext fun a => by fin_cases a <;> decide
  exact (Memref.read_access_unit_zero (Elt Ideal) main_v0 hz' (fun a => by rw [congrFun hz' a]; simp) (result m c)).symm

/-- That block covers the array, so the array ends holding the pooled function. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1024 := (i 0).isLt
      have h1 : (i 1 : Nat) < 256 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1024 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 256 from by decide +kernel]; omega⟩

/-- The kernel's run: it terminates with the result array at the pooled function and both arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.KValue

end
-- ==== Proof.RefValue.lean ====
/-
  The reference computes the pooled function: its matrix product at (g, d) is the sum over all 131072 nodes of
  A (g, k) · X (k, d), and its tanh is applied entry by entry — the same tanh on the extended reals as the kernel's.
-/
import proofs.«181324_j16982300688779_1_alg».proof.Proof.Gen.ReferenceIdeal.Read
import proofs.«181324_j16982300688779_1_alg».proof.Proof.PoolSpec

noncomputable section

namespace Cert.ReferenceIdeal.RefValue

open Idealize.ShloMosaic Idealize.ShloMosaic.ValueIdx
open Cert.ReferenceIdeal Cert.ReferenceIdeal.Read Cert.Pool

/-- The left operand is read at (g, k), -/
theorem lidx_eq (j : S1024x256.Idx) (k : Fin 131072) : lidx_main_v0 j k = (ix2 (j 0) k : S1024x131072.Idx) :=
  funext fun a => Fin.ext (by match a with | ⟨0, _⟩ => rfl | ⟨1, _⟩ => rfl)

/-- and the right operand at (k, d). -/
theorem ridx_eq (j : S1024x256.Idx) (k : Fin 131072) : ridx_main_v0 j k = (ix2 k (j 1) : S131072x256.Idx) :=
  funext fun a => Fin.ext (by match a with | ⟨0, _⟩ => rfl | ⟨1, _⟩ => rfl)

/-- The reference's result is the pooled function of its two arguments. -/
theorem ref_pooled (X : (⟨S131072x256, .f32⟩ : BufTy).Contents (Elt Ideal)) (A : (⟨S1024x131072, .f32⟩ : BufTy).Contents (Elt Ideal)) :
    val_main_v1 (F := Ideal) X A = pooled A X := by
  funext j
  rw [val_main_v1_apply, val_main_v0_apply, Ideal.hostUnary_tanh_def]
  unfold pooled
  exact congrArg Ideal.tanh (Finset.sum_congr rfl fun k _ => by rw [lidx_eq, ridx_eq])

end Cert.ReferenceIdeal.RefValue

end
-- ==== Proof.lean ====
/-
  Sum pooling of node features over graphs, followed by tanh: the kernel against its reference, on the extended reals.

  Both programs compute, at every (g, d), tanh (∑ k, A (g, k) · X (k, d)) over the 131072 nodes, A the [1024, 131072]
  membership matrix and X the [131072, 256] features. The reference takes the whole matrix product and then tanh.
  The kernel walks the nodes in 32 tiles of 4096: at each grid point it adds the product of the point's two tiles to
  an accumulator that starts from zeros, and after the last point it writes tanh of the accumulator to the result.
  Narrowing the tiles to a shorter float format is the identity on the extended reals, a matrix-unit product into
  zeros is the plain sum over the contracted axis, and addition of extended reals is commutative and associative, so
  the 32 partial sums add up to the whole sum; the two tanh are one function. Nothing here needs the inputs to be
  finite.

  The frames of the two kernels are the generated ones; the reference's frame is its generated run with the result
  dropped. The idealization rewrote nothing, so there is nothing to preserve.
-/
import proofs.«181324_j16982300688779_1_alg».proof.Defs
import proofs.«181324_j16982300688779_1_alg».proof.Proof.Gen.Kernel
import proofs.«181324_j16982300688779_1_alg».proof.Proof.Gen.Kernel.Skeleton
import proofs.«181324_j16982300688779_1_alg».proof.Proof.Gen.Kernel.Launch
import proofs.«181324_j16982300688779_1_alg».proof.Proof.Gen.Kernel.Points
import proofs.«181324_j16982300688779_1_alg».proof.Proof.Gen.Kernel.Frame
import proofs.«181324_j16982300688779_1_alg».proof.Proof.Gen.KernelIdeal
import proofs.«181324_j16982300688779_1_alg».proof.Proof.Gen.KernelIdeal.Skeleton
import proofs.«181324_j16982300688779_1_alg».proof.Proof.Gen.KernelIdeal.Launch
import proofs.«181324_j16982300688779_1_alg».proof.Proof.Gen.KernelIdeal.Points
import proofs.«181324_j16982300688779_1_alg».proof.Proof.Gen.KernelIdeal.Frame
import proofs.«181324_j16982300688779_1_alg».proof.Proof.Gen.ReferenceIdeal
import proofs.«181324_j16982300688779_1_alg».proof.Proof.Gen.Pre_finite_inputs
import proofs.«181324_j16982300688779_1_alg».proof.Proof.Gen.KernelIdeal.Value
import proofs.«181324_j16982300688779_1_alg».proof.Proof.Gen.ReferenceIdeal.Run
import proofs.«181324_j16982300688779_1_alg».proof.Proof.Gen.ReferenceIdeal.Read
import proofs.«181324_j16982300688779_1_alg».proof.Proof.KernelValue
import proofs.«181324_j16982300688779_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the pooled function of arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.ref_pooled, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
